-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S64x4096 .f32) (main_arg3 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S64 : Shape := ⟨1, ![64]⟩
abbrev S64x1 : Shape := ⟨2, ![64, 1]⟩
abbrev S8192x4096 : Shape := ⟨2, ![8192, 4096]⟩
abbrev S512x4096 : Shape := ⟨2, ![512, 4096]⟩
abbrev S512x512 : Shape := ⟨2, ![512, 512]⟩

abbrev nBuf : Space → Nat
  | .hbm => 14
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S64, .f32⟩
  | .hbm, ⟨5, _⟩ => ⟨S64x1, .f32⟩
  | .hbm, ⟨6, _⟩ => ⟨S64x4096, .f32⟩
  | .hbm, ⟨7, _⟩ => ⟨S64x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S8192x4096, .f32⟩
  | .hbm, ⟨12, _⟩ => ⟨S8192x4096, .f32⟩
  | .hbm, ⟨13, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S4096x64_S64x4096_S4096x4096_1_0_0_1_n_n_wf : DotDims.WF S4096x64 S64x4096 S4096x4096 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v6) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S64 : Shape := ⟨1, ![64]⟩
abbrev S4x2048x64 : Shape := ⟨3, ![4, 2048, 64]⟩
abbrev S1x1x64 : Shape := ⟨3, ![1, 1, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S64, .f32⟩
  | .hbm, ⟨5, _⟩ => ⟨S4x2048x4096, .f32⟩
  | .hbm, ⟨6, _⟩ => ⟨S4x2048x64, .f32⟩
  | .hbm, ⟨7, _⟩ => ⟨S1x1x64, .f32⟩
  | .hbm, ⟨8, _⟩ => ⟨S4x2048x64, .f32⟩
  | .hbm, ⟨9, _⟩ => ⟨S4x2048x64, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.LibFlatten.lean ====
/-
  Merging the two leading axes of a three-axis array, and splitting them again, read at an index. Row-major order
  puts entry (a, b, c) of an `[A, B, C]` array at position (a B + b) C + c, which is where entry (a B + b, c) of an
  `[N, C]` array sits; so the flattened array at row `p = a B + b` and column `c` is the original at (a, b, c), and
  an `[N, C]` array reshaped to `[A, B, C]` reads at (a, b, c) its row `a B + b`.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[A, B, C]` array flattened to `[N, C]` reads, at row `p = a B + b` and column `c`, the array at (a, b, c). -/
theorem flatten_apply {A B C N : ℕ} (x : (⟨3, ![A, B, C]⟩ : Shape).Idx → α)
    (h : (⟨3, ![A, B, C]⟩ : Shape).ShapeCasts ⟨2, ![N, C]⟩) (a : Fin A) (b : Fin B) (c : Fin C) (p : Fin N)
    (hp : p.val = a.val * B + b.val) :
    shapeCast ⟨2, ![N, C]⟩ x h (ix2 p c) = x (ix3 a b c) :=
  shapeCast_apply x h _ _ (by
    rw [Shape.rowMajor_val_three, Shape.rowMajor_val_two]
    show (a.val * B + b.val) * C + c.val = p.val * C + c.val
    rw [hp])

/-- An `[N, C]` array reshaped to `[A, B, C]` reads, at (a, b, c), the array at row `p = a B + b` and column `c`. -/
theorem unflatten_apply {A B C N : ℕ} (y : (⟨2, ![N, C]⟩ : Shape).Idx → α)
    (h : (⟨2, ![N, C]⟩ : Shape).ShapeCasts ⟨3, ![A, B, C]⟩) (a : Fin A) (b : Fin B) (c : Fin C) (p : Fin N)
    (hp : p.val = a.val * B + b.val) :
    shapeCast ⟨3, ![A, B, C]⟩ y h (ix3 a b c) = y (ix2 p c) :=
  shapeCast_apply y h _ _ (by
    rw [Shape.rowMajor_val_three, Shape.rowMajor_val_two]
    show p.val * C + c.val = (a.val * B + b.val) * C + c.val
    rw [hp])

end Cert.LibFlatten

end
-- ==== Proof.KernelPrefix.lean ====
/-
  What the region finds in its two input windows. Before the region the host flattens the activations
  `x : [4, 2048, 4096]` to `[8192, 4096]` (row `b · 2048 + s` is token (b, s)) and folds the low-rank update into the
  dense weight: entry (o, k) of the combined weight is
      W(o, k) + sum over r < 64 of B(o, r) · (2 · A(r, k)),
  the scale 2 = 32 / 16 laid out as a column and repeated along the rows of `A`, the `[4096, 64] × [64, 4096]`
  product a plain rows-by-columns one, and the narrowing of the sum to bf16 the identity on the extended reals.
-/
import proofs.«145971_j83949430767868_2_alg».proof.Proof.Gen.KernelIdeal.Frame
import proofs.«145971_j83949430767868_2_alg».proof.Proof.LibCol
import proofs.«145971_j83949430767868_2_alg».proof.Proof.LibDot
import proofs.«145971_j83949430767868_2_alg».proof.Proof.LibFlatten
import Idealize.ShloMosaic.Lib.StableHlo.Run
import Idealize.ShloMosaic.Lib.Pipeline.Value
import Idealize.ShloMosaic.Lib.ValueIdx

noncomputable section

open scoped BigOperators

namespace Cert.KernelIdeal.Lora

open Cert.KernelIdeal Cert.KernelIdeal.Gen Idealize.ShloMosaic Idealize.ShloMosaic.TcCoe Idealize.SL.Sem
  Idealize.ShloMosaic.StableHlo Idealize.ShloMosaic.ValueIdx

/-- The combined weight at row `o` and column `k`. -/
def combinedAt (W : FVec Ideal S4096x4096 .f32) (A : FVec Ideal S64x4096 .f32) (B : FVec Ideal S4096x64 .f32)
    (o k : Fin 4096) : EReal :=
  W (ix2 o k) + ∑ r : Fin 64, B (ix2 o r) * (Ideal.ofBits .f32 0x40000000#32 * A (ix2 r k))

variable (m : (ℓ : Loc nD τ sig) → Buf (Elt Ideal) ℓ)

/-- Window 0's array is the activations, flattened. -/
theorem found_x (c : Dev nD) :
    (V m c main_v6 : FVec Ideal S8192x4096 .f32)
      = shapeCast S8192x4096 (m ((c : Thread nD τ).loc main_arg0)) shapeCasts_S4x2048x4096_S8192x4096 := by
  show StableHlo.after hostOps0 (fun b => m (c, b)) (Proc.devRef .tc main_v6) = _
  after_results
  rfl

/-- Window 1's array is the host's fold of the low-rank update into the weight. -/
theorem found_w (c : Dev nD) :
    (V m c main_v5 : FVec Ideal S4096x4096 .bf16)
      = truncf .bf16 (addf (m ((c : Thread nD τ).loc main_arg1))
          (Host.dotGeneral (φ₁ := .f32) (φ₂ := .f32) dot_S4096x64_S64x4096_S4096x4096_1_0_0_1_n_n none (m ((c : Thread nD τ).loc main_arg3))
            (mulf (broadcastInDim S64x4096 ![0, 1] bcast_S64x1_S64x4096_0_1
                (broadcastInDim S64x1 ![0] bcast_S64_S64x1_0 (constant (F := Ideal) S64 .f32 0x40000000#32)))
              (m ((c : Thread nD τ).loc main_arg2))))) bitsLt_bf16_f32 := by
  show StableHlo.after hostOps0 (fun b => m (c, b)) (Proc.devRef .tc main_v5) = _
  after_results
  first | done | rfl

/-- The flattened activations at row `b · 2048 + s`. -/
theorem found_x_apply (c : Dev nD) (b : Fin 4) (s : Fin 2048) (k : Fin 4096) (p : Fin 8192) (hp : p.val = b.val * 2048 + s.val) :
    (V m c main_v6 : FVec Ideal S8192x4096 .f32) (ix2 p k) = m ((c : Thread nD τ).loc main_arg0) (ix3 b s k) := by
  rw [found_x]
  exact LibFlatten.flatten_apply _ _ b s k p hp

theorem plain_dot : LibDot.IsPlain dot_S4096x64_S64x4096_S4096x4096_1_0_0_1_n_n := ⟨rfl, rfl, rfl, rfl, rfl, rfl⟩

/-- The combined weight at an entry. -/
theorem found_w_apply (c : Dev nD) (o k : Fin 4096) :
    (V m c main_v5 : FVec Ideal S4096x4096 .bf16) (ix2 o k)
      = combinedAt (m ((c : Thread nD τ).loc main_arg1)) (m ((c : Thread nD τ).loc main_arg2)) (m ((c : Thread nD τ).loc main_arg3)) o k := by
  rw [found_w]
  unfold combinedAt
  rw [truncf_apply, addf_apply]
  simp only [Host.dotGeneral]
  rw [LibDot.dotGeneral_apply _ plain_dot]
  refine congrArg _ (Finset.sum_congr rfl fun r _ => ?_)
  rw [mulf_apply, LibCol.broadcastInDim_a1_ab_apply, LibCol.broadcastInDim_a_a1_apply]
  rfl

end Cert.KernelIdeal.Lora

end
-- ==== Proof.LibDotRows.lean ====
/-
  A matrix product whose two operands both carry the contracted axis LAST. For dimension numbers that contract the last
  axis of the left operand `[M, K]` against the last axis of the right operand `[N, K]`, with no batch axis, the
  contraction sum at row `a` and column `b` of the `[M, N]` result is the sum over `k` of `l (a, k) * r (b, k)`: the left
  operand times the transpose of the right one. Stated for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDotRows

open Idealize.ShloMosaic Idealize.ShloMosaic.ValueIdx

/-- The six axis lists of a product that contracts the last axis of both operands. -/
structure IsRows {M K N : Nat} (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {M K N : Nat} (D : DotDims ⟨2, ![M, K]⟩ ⟨2, ![N, K]⟩ ⟨2, ![M, N]⟩) (hD : IsRows D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at the result's row. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
/-- The right operand's ROW is the result's column. -/
theorem rhs0 (j : (⟨2, ![M, N]⟩ : Shape).Idx) (q : D.contr.Idx) : (D.rhsIdx j q 0).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of row `a` of the left operand times row `b` of the right one. -/
theorem rows_sum (l : (⟨2, ![M, K]⟩ : Shape).Idx → EReal) (r : (⟨2, ![N, K]⟩ : Shape).Idx → EReal) (a : Fin M) (b : Fin N) :
    ∑ q : D.contr.Idx, l (D.lhsIdx (ix2 a b) q) * r (D.rhsIdx (ix2 a b) q) = ∑ k : Fin K, l (ix2 a k) * r (ix2 b k) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 b k :=
    funext fun x => Fin.ext (by
      match x with
      | ⟨0, _⟩ => exact rhs0 D hD _ _
      | ⟨1, _⟩ => exact (D.rhsIdx_val_of_single hD.rc _ _).trans hk)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![N, K]⟩ φ₂) (a : Fin M) (b : Fin N) :
    FloatOps.matmul D prec l r (constant ⟨2, ![M, N]⟩ .f32 0x00000000#32) (ix2 a b) = ∑ k : Fin K, l (ix2 a k) * r (ix2 b k) :=
  (Ideal.matmul_constant_zero_apply D prec l r (ix2 a b)).trans (rows_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![N, K]⟩ φ₂) (a : Fin M) (b : Fin N) :
    FloatOps.dotGeneral D prec sched l r (ix2 a b) = ∑ k : Fin K, l (ix2 a k) * r (ix2 b k) :=
  (Ideal.dotGeneral_apply D prec sched l r (ix2 a b)).trans (rows_sum D hD l r a b)

end Cert.LibDotRows

end
-- ==== Proof.KernelBlock.lean ====
/-
  The region's output array. The grid has 16 × 8 points; at point (i, j) the body multiplies rows 512 i … 512 i + 511
  of the flattened activations (all 4096 columns) with rows 512 j … 512 j + 511 of the combined weight (all 4096
  columns), contracting the columns of both, and writes the 512 × 512 tile (i, j) of the output. Entry (a, b) of that
  tile is the sum over k of X(512 i + a, k) · Wt(512 j + b, k), which is entry (512 i + a, 512 j + b) of ONE
  whole-array function: rows of X against rows of Wt. The 128 tiles cover the 8192 × 4096 output, so after the run the
  output array is that function.
-/
import proofs.«145971_j83949430767868_2_alg».proof.Proof.Gen.KernelIdeal.Frame
import proofs.«145971_j83949430767868_2_alg».proof.Proof.LibDotRows
import Idealize.ShloMosaic.Lib.Pipeline.Value
import Idealize.ShloMosaic.Lib.ValueIdx
import Idealize.ShloMosaic.Lib.Tactic

noncomputable section

open scoped BigOperators

namespace Cert.KernelIdeal.Lora

open Cert.KernelIdeal Cert.KernelIdeal.Gen Idealize.ShloMosaic Idealize.ShloMosaic.TcCoe Idealize.SL.Sem
  Idealize.ShloMosaic.ValueIdx
open Idealize.ShloMosaic.Pipeline (Dat)

/-- Rows of `X` against rows of `Wt`: entry (p, o) is the sum over k of X(p, k) · Wt(o, k). -/
def rowsTimesRows (X : FVec Ideal S8192x4096 .f32) (Wt : FVec Ideal S4096x4096 .bf16) : FVec Ideal S8192x4096 .f32 :=
  fun j => ∑ k : Fin 4096, X (ix2 (j 0 : Fin 8192) k) * Wt (ix2 (j 1 : Fin 4096) k)

theorem rows_dot : LibDotRows.IsRows dot_S512x4096_S512x4096_S512x512_1_1_0_0_n_n := ⟨rfl, rfl, rfl, rfl, rfl, rfl⟩

/-- One tile: the body's product at entry (a, b) is row `a` of the first block against row `b` of the second (the
    narrowing of the first block to bf16 and the two same-shape casts are the identity). -/
theorem tile_apply (x0 : Vec Ideal S512x4096 .f32) (x1 : Vec Ideal S512x4096 .bf16) (a b : Fin 512) :
    k0_pay1 (F := Ideal) x0 x1 (ix2 a b)
      = ∑ k : Fin 4096, (x0 : FVec Ideal S512x4096 .f32) (ix2 a k) * (x1 : FVec Ideal S512x4096 .bf16) (ix2 b k) := by
  unfold k0_pay1
  rw [shapeCast_self, shapeCast_self]
  exact LibDotRows.matmul_zero_apply _ rows_dot none _ _ a b

variable (m : (ℓ : Loc nD τ sig) → Buf (Elt Ideal) ℓ)

theorem hz : (![0, 0] : Fin 2 → Nat) = fun _ => 0 := funext fun a => by fin_cases a <;> rfl

/-- The printed index maps over the 128 points: window 0 follows the output's row tile and window 1 the output's column
    tile, both at column block 0; the output's tile indices stay below 16 and 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 7 :=
  (by decide +kernel : ∀ t : Fin grid0.N, _)

/-- Every tile of the output is some point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- Window 0's block at a point is 512 rows of the array the region found there. -/
theorem xblk_apply (c : Dev nD) (t : Fin cfg0.N) (y : S512x4096.Idx) (i : S8192x4096.Idx)
    (h0 : (i 0).val = win0_0.index t (0 : Fin 2) * 512 + (y 0).val)
    (h1 : (i 1).val = win0_0.index t (1 : Fin 2) * 4096 + (y 1).val) :
    (iblk m c 0 t : Vec Ideal S512x4096 .f32) y = (V m c main_v6 : FVec Ideal S8192x4096 .f32) i := by
  unfold iblk
  rw [View.read_apply]
  show V m c main_v6 _ = V m c main_v6 _
  congr 1
  funext a
  apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- Window 1's block at a point is 512 rows of the array the region found there. -/
theorem wblk_apply (c : Dev nD) (t : Fin cfg0.N) (y : S512x4096.Idx) (i : S4096x4096.Idx)
    (h0 : (i 0).val = win0_1.index t (0 : Fin 2) * 512 + (y 0).val)
    (h1 : (i 1).val = win0_1.index t (1 : Fin 2) * 4096 + (y 1).val) :
    (iblk m c 1 t : Vec Ideal S512x4096 .bf16) y = (V m c main_v5 : FVec Ideal S4096x4096 .bf16) i := by
  unfold iblk
  rw [View.read_apply]
  show V m c main_v5 _ = V m c main_v5 _
  congr 1
  funext a
  apply Fin.ext
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-- The body's tile at a point, entry by entry, is the whole-array product at the entry the tile's rectangle names. -/
theorem tile_eq (c : Dev nD) (t : Fin cfg0.N) (j : S512x512.Idx) (i : S8192x4096.Idx)
    (h0 : (i 0).val = win0_2.index t (0 : Fin 2) * 512 + (j 0).val)
    (h1 : (i 1).val = win0_2.index t (1 : Fin 2) * 512 + (j 1).val) :
    k0_pay1 (F := Ideal) (iblk m c 0 t) (iblk m c 1 t) j = rowsTimesRows (V m c main_v6) (V m c main_v5) i := by
  obtain ⟨e0, e1, e2, e3, e4, e5⟩ := idx_facts t
  obtain ⟨a, b, rfl⟩ : ∃ (a b : Fin 512), j = ix2 a b := ⟨j 0, j 1, eq_ix2 j⟩
  have h0' : (i 0).val = win0_2.index t (0 : Fin 2) * 512 + a.val := h0
  have h1' : (i 1).val = win0_2.index t (1 : Fin 2) * 512 + b.val := h1
  refine (tile_apply (iblk m c 0 t) (iblk m c 1 t) a b).trans ?_
  unfold rowsTimesRows
  refine Finset.sum_congr rfl fun k _ => ?_
  have hx := xblk_apply m c t (ix2 a k) (ix2 (i 0 : Fin 8192) k)
    (by show (i 0).val = win0_0.index t (0 : Fin 2) * 512 + a.val; omega)
    (by show k.val = win0_0.index t (1 : Fin 2) * 4096 + k.val; omega)
  have hw := wblk_apply m c t (ix2 b k) (ix2 (i 1 : Fin 4096) k)
    (by show (i 1).val = win0_1.index t (0 : Fin 2) * 512 + b.val; omega)
    (by show k.val = win0_1.index t (1 : Fin 2) * 4096 + k.val; omega)
  exact congrArg₂ (· * ·) hx hw

/-- WHAT POINT `t` WRITES BACK is tile `t` of the whole-array product of the arrays the region found. -/
theorem flushed_eq (c : Dev nD) (t : Fin cfg0.N) :
    (dats m 0 c).flushed 2 t
      = ((cfg0.win 2).blk t).view.read (Elt Ideal) (rowsTimesRows (V m c main_v6) (V m c main_v5)) := by
  show (cfg0.win 2).cut (grid0.coords t) ((dats m 0 c).after 2 t) = _
  rw [after0_2]
  unfold out0_2
  rw [View.canon_unit_zero hz]
  simp only [View.ld_unit_zero (S := S512x4096) hz]
  funext j
  show k0_pay1 (F := Ideal) (iblk m c 0 t) (iblk m c 1 t) j
    = rowsTimesRows (V m c main_v6) (V m c main_v5) (((cfg0.win 2).blk t).view.emb j)
  exact tile_eq m c t j _
    (by show win0_2.index t (0 : Fin 2) * 512 + 1 * (j 0).val = _; omega)
    (by show win0_2.index t (1 : Fin 2) * 512 + 1 * (j 1).val = _; omega)

/-- An index of the output array is in point `t`'s tile iff each coordinate is in the tile's range on its axis. -/
theorem mem_blk (t : Fin cfg0.N) (i : S8192x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v7).slice (win0_2.rect t)).set ↔ _
  rw [View.set_slice_whole, Rect.mem_set_unit]
  exact Iff.rfl

/-- The tiles cover the output: entry (p, o) is in the tile of the point with tile indices (p / 512, o / 512). -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE OUTPUT ARRAY after the run: rows of the flattened activations against rows of the combined weight. -/
theorem final_out (c : Dev nD) :
    (dats m 0 c).arrAt 2 cfg0.N = rowsTimesRows (V m c main_v6) (V m c main_v5) :=
  (dats m 0 c).arrAt_eq_of_cover 2 (rowsTimesRows (V m c main_v6) (V m c main_v5)) (fun t _ => flushed_eq m c t) covered

end Cert.KernelIdeal.Lora

end
-- ==== Proof.KernelRun.lean ====
/-
  The kernel program's result. After the region the host reshapes the `[8192, 4096]` output to `[4, 2048, 4096]`:
  entry (b, s, o) is row `b · 2048 + s`, column `o` of the region's output. With the output array being rows of the
  flattened activations against rows of the combined weight, the result at (b, s, o) is
      sum over k of x(b, s, k) · (W(o, k) + sum over r of B(o, r) · (2 · A(r, k))).
  The run is the generated frame run with the result array named and the four argument arrays unchanged.
-/
import proofs.«145971_j83949430767868_2_alg».proof.Proof.Gen.KernelIdeal.Frame
import proofs.«145971_j83949430767868_2_alg».proof.Proof.KernelPrefix
import proofs.«145971_j83949430767868_2_alg».proof.Proof.KernelBlock
import proofs.«145971_j83949430767868_2_alg».proof.Proof.LibFlatten
import Idealize.ShloMosaic.Lib.StableHlo.Run
import Idealize.ShloMosaic.Lib.Pipeline.Value
import Idealize.ShloMosaic.Lib.ValueIdx

noncomputable section

open scoped BigOperators

namespace Cert.KernelIdeal.Lora

open Cert.KernelIdeal Cert.KernelIdeal.Gen Idealize.ShloMosaic Idealize.ShloMosaic.TcCoe Idealize.SL.Sem
  Idealize.ShloMosaic.StableHlo Idealize.ShloMosaic.ValueIdx
open Idealize.ShloMosaic.Pipeline (Dat)

/-- The kernel program's result as one function of the four argument arrays. -/
def kernelOut (x : FVec Ideal S4x2048x4096 .f32) (W : FVec Ideal S4096x4096 .f32) (A : FVec Ideal S64x4096 .f32)
    (B : FVec Ideal S4096x64 .f32) : FVec Ideal S4x2048x4096 .f32 :=
  fun i => ∑ k : Fin 4096, x (ix3 (i 0 : Fin 4) (i 1 : Fin 2048) k) * combinedAt W A B (i 2 : Fin 4096) k

variable (m : (ℓ : Loc nD τ sig) → Buf (Elt Ideal) ℓ) (ρ : Dev nD → PrngReg)

/-- The line after the region reshapes the region's output array. -/
theorem tail_eq (c : Dev nD) :
    (Pipeline.afterTail₀ cfgs (dats m) 0 (V0 m) [hostOps1] c main_v8 : FVec Ideal S4x2048x4096 .f32)
      = shapeCast S4x2048x4096 ((dats m 0 c).arrAt 2 cfg0.N : FVec Ideal S8192x4096 .f32) shapeCasts_S8192x4096_S4x2048x4096 := by
  have e : Pipeline.withArrays (cfgs 0).spec c (V0 m c) (fun w => (dats m 0 c).arrAt w (cfgs 0).N) (Proc.devRef .tc main_v7)
      = (dats m 0 c).arrAt 2 cfg0.N := Pipeline.withArrays_arr spec0 launch0.win.arr_inj c _ _ 2
  unfold Pipeline.afterTail₀
  show StableHlo.after hostOps1 _ (Proc.devRef .tc main_v8) = _
  after_results
  rw [e]
  rfl

/-- The result at token (b, s) and output feature o. -/
theorem result_apply (c : Dev nD) (b : Fin 4) (s : Fin 2048) (o : Fin 4096) :
    (Pipeline.afterTail₀ cfgs (dats m) 0 (V0 m) [hostOps1] c main_v8 : FVec Ideal S4x2048x4096 .f32) (ix3 b s o)
      = kernelOut (m ((c : Thread nD τ).loc main_arg0)) (m ((c : Thread nD τ).loc main_arg1))
          (m ((c : Thread nD τ).loc main_arg2)) (m ((c : Thread nD τ).loc main_arg3)) (ix3 b s o) := by
  have hp : b.val * 2048 + s.val < 8192 := by have := b.isLt; have := s.isLt; omega
  rw [tail_eq, LibFlatten.unflatten_apply _ _ b s o ⟨b.val * 2048 + s.val, hp⟩ rfl, final_out]
  unfold rowsTimesRows kernelOut
  show (_ : EReal) = _
  refine Finset.sum_congr rfl fun k _ => ?_
  exact congrArg₂ (fun (u v : EReal) => u * v) (found_x_apply m c b s k ⟨b.val * 2048 + s.val, hp⟩ rfl) (found_w_apply m c o k)

/-- The result array is `kernelOut` of the argument arrays. -/
theorem result_eq (c : Dev nD) :
    (Pipeline.afterTail₀ cfgs (dats m) 0 (V0 m) [hostOps1] c main_v8 : FVec Ideal S4x2048x4096 .f32)
      = kernelOut (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  exact result_apply m c b s o

/-- THE KERNEL PROGRAM'S RUN, read: every weakly fair execution terminates with the result array at `kernelOut` of the
    arguments and the arguments unchanged. -/
theorem run : θ_run defs (onTc (τ := τ) (main (F := Ideal))) ⟨m, fun _ => 0, ρ⟩ fun r => ∀ c : Dev nD,
      r.2.mem ((c.tc : Thread nD τ).loc main_v8)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Lora

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.FiniteInputs.lean ====
/-
  The precondition read back: every entry of the four argument arrays is a real number. The precondition is the
  conjunction of four tests "all |entries| < +inf", one per array; a conjunction of one-bit words is 1 only if each
  is, an and-reduction over a whole array is 1 only if every word is, and an extended real whose absolute value is
  below plus infinity is a real number.
-/
import proofs.«145971_j83949430767868_2_alg».proof.Pre_finite_inputs
import proofs.«145971_j83949430767868_2_alg».proof.Proof.LibReal
import Idealize.ShloMosaic.Lib.ReduceAll
import Idealize.ShloMosaic.Lib.ValueIdx

noncomputable section

namespace Cert.Pre_finite_inputs.Lora

open Cert.Pre_finite_inputs Cert.Pre_finite_inputs.Facts Cert.LibReal Idealize.ShloMosaic Idealize.ShloMosaic.ValueIdx

instance : Subsingleton S_.Idx := ⟨fun a b => funext fun d => d.elim0⟩

variable [Facts]

/-- Under the precondition the four argument arrays hold real numbers. -/
theorem entries_real (x : FVec Ideal S4x2048x4096 .f32) (W : FVec Ideal S4096x4096 .f32) (A : FVec Ideal S64x4096 .f32)
    (B : FVec Ideal S4096x64 .f32) (h : fn (F := Ideal) x W A B = fun _ => 1#1) :
    (∀ i, IsReal (x i)) ∧ (∀ i, IsReal (W i)) ∧ (∀ i, IsReal (A i)) ∧ (∀ i, IsReal (B i)) := by
  have h0 := congrFun h ix0
  dsimp only [fn, fn_part1, andi] at h0
  obtain ⟨h012, h3⟩ := IntOp.andi_eq_one.mp h0
  obtain ⟨h01, h2⟩ := IntOp.andi_eq_one.mp h012
  obtain ⟨hx, hW⟩ := IntOp.andi_eq_one.mp h01
  exact ⟨fun i => entry_real x bcast_S_S4x2048x4096 i (Host.reduce_andi_all _ _ _ _ _ hx i),
    fun i => entry_real W bcast_S_S4096x4096 i (Host.reduce_andi_all _ _ _ _ _ hW i),
    fun i => entry_real A bcast_S_S64x4096 i (Host.reduce_andi_all _ _ _ _ _ h2 i),
    fun i => entry_real B bcast_S_S4096x64 i (Host.reduce_andi_all _ _ _ _ _ h3 i)⟩

end Cert.Pre_finite_inputs.Lora

end
-- ==== Proof.RefValue.lean ====
/-
  The reference's result at an entry. The reference projects the activations three times: onto the dense weight,
  onto the 64 rows of `A` (then scales every one of the 64 columns by 2 = 32 / 16) and from there onto `B`; entry
  (b, s, o) of its result is
      sum over k of x(b, s, k) · W(o, k)  +  sum over r of ((sum over k of x(b, s, k) · A(r, k)) · 2) · B(o, r).
  Each of the three products contracts the last axis of both operands; the generated read lemmas give each as a sum
  over the contracted coordinate, and the index functions they name are the evident coordinates.
-/
import proofs.«145971_j83949430767868_2_alg».proof.Proof.Gen.ReferenceIdeal.Read
import Idealize.ShloMosaic.Lib.ValueIdx

noncomputable section

open scoped BigOperators

namespace Cert.ReferenceIdeal.Lora

open Cert.ReferenceIdeal Cert.ReferenceIdeal.Gen Cert.ReferenceIdeal.Read Idealize.ShloMosaic Idealize.ShloMosaic.ValueIdx

theorem lidx0 (b : Fin 4) (s : Fin 2048) (o : Fin 4096) (k : Fin 4096) : lidx_main_v0 (ix3 b s o) k = ix3 b s k :=
  funext fun a => Fin.ext (by match a with | ⟨0, _⟩ => rfl | ⟨1, _⟩ => rfl | ⟨2, _⟩ => rfl)
theorem ridx0 (b : Fin 4) (s : Fin 2048) (o : Fin 4096) (k : Fin 4096) : ridx_main_v0 (ix3 b s o) k = ix2 o k :=
  funext fun a => Fin.ext (by match a with | ⟨0, _⟩ => rfl | ⟨1, _⟩ => rfl)
theorem lidx1 (b : Fin 4) (s : Fin 2048) (r : Fin 64) (k : Fin 4096) : lidx_main_v1 (ix3 b s r) k = ix3 b s k :=
  funext fun a => Fin.ext (by match a with | ⟨0, _⟩ => rfl | ⟨1, _⟩ => rfl | ⟨2, _⟩ => rfl)
theorem ridx1 (b : Fin 4) (s : Fin 2048) (r : Fin 64) (k : Fin 4096) : ridx_main_v1 (ix3 b s r) k = ix2 r k :=
  funext fun a => Fin.ext (by match a with | ⟨0, _⟩ => rfl | ⟨1, _⟩ => rfl)
theorem lidx5 (b : Fin 4) (s : Fin 2048) (o : Fin 4096) (r : Fin 64) : lidx_main_v5 (ix3 b s o) r = ix3 b s r :=
  funext fun a => Fin.ext (by match a with | ⟨0, _⟩ => rfl | ⟨1, _⟩ => rfl | ⟨2, _⟩ => rfl)
theorem ridx5 (b : Fin 4) (s : Fin 2048) (o : Fin 4096) (r : Fin 64) : ridx_main_v5 (ix3 b s o) r = ix2 o r :=
  funext fun a => Fin.ext (by match a with | ⟨0, _⟩ => rfl | ⟨1, _⟩ => rfl)

/-- The repeated scale is 2 at every entry. -/
theorem scale_apply (j : S4x2048x64.Idx) : val_main_v3 (F := Ideal) j = Ideal.ofBits .f32 0x40000000#32 := by
  rw [val_main_v3_apply, val_main_v2_apply, val_main_cst_apply]
  rfl

/-- The scaled projection onto `A` at token (b, s) and rank coordinate r. -/
theorem scaled_apply (x : FVec Ideal S4x2048x4096 .f32) (A : FVec Ideal S64x4096 .f32) (b : Fin 4) (s : Fin 2048) (r : Fin 64) :
    val_main_v4 (F := Ideal) x A (ix3 b s r)
      = (∑ k : Fin 4096, x (ix3 b s k) * A (ix2 r k)) * Ideal.ofBits .f32 0x40000000#32 := by
  rw [val_main_v4_apply, val_main_v1_apply, scale_apply]
  show (∑ k : Fin 4096, x (lidx_main_v1 (ix3 b s r) k) * A (ridx_main_v1 (ix3 b s r) k)) * _ = _
  refine congrArg (· * Ideal.ofBits .f32 0x40000000#32) (Finset.sum_congr rfl fun k _ => ?_)
  rw [lidx1, ridx1]

/-- The reference's result at token (b, s) and output feature o. -/
theorem ref_apply (x : FVec Ideal S4x2048x4096 .f32) (W : FVec Ideal S4096x4096 .f32) (A : FVec Ideal S64x4096 .f32)
    (B : FVec Ideal S4096x64 .f32) (b : Fin 4) (s : Fin 2048) (o : Fin 4096) :
    val_main_v6 (F := Ideal) x W A B (ix3 b s o)
      = (∑ k : Fin 4096, x (ix3 b s k) * W (ix2 o k))
        + ∑ r : Fin 64, ((∑ k : Fin 4096, x (ix3 b s k) * A (ix2 r k)) * Ideal.ofBits .f32 0x40000000#32) * B (ix2 o r) := by
  rw [val_main_v6_apply, val_main_v0_apply, val_main_v5_apply]
  show (∑ k : Fin 4096, x (lidx_main_v0 (ix3 b s o) k) * W (ridx_main_v0 (ix3 b s o) k))
      + (∑ r : Fin 64, val_main_v4 (F := Ideal) x A (lidx_main_v5 (ix3 b s o) r) * B (ridx_main_v5 (ix3 b s o) r)) = _
  congr 1
  · refine Finset.sum_congr rfl fun k _ => ?_
    rw [lidx0, ridx0]
  · refine Finset.sum_congr rfl fun r _ => ?_
    rw [lidx5, ridx5, scaled_apply]

end Cert.ReferenceIdeal.Lora

end
-- ==== Proof.LoraLaw.lean ====
/-
  A low-rank update folded into a weight row, against the same update applied after the projection.

  For a row `x` of `K` numbers, a weight row `w` of `K` numbers, a `R × K` matrix `a`, a row `b` of `R` numbers and a
  scale `t`,
      sum_k x_k (w_k + sum_r b_r (t a_{r,k}))  =  sum_k x_k w_k  +  sum_r ((sum_k x_k a_{r,k}) t) b_r :
  distribute `x_k` over the inner sum, exchange the two finite sums, and pull the factors that do not depend on `k`
  out of the sum over `k`. Over the real numbers this is plain algebra. Over the extended reals distributing a
  factor over a sum can fail at the infinities, so the law is stated for entries that are real numbers; then every
  partial sum is a real number too and the identity is the real one.
-/
import proofs.«145971_j83949430767868_2_alg».proof.Proof.LibReal

noncomputable section

open scoped BigOperators

namespace Cert.LoraLaw

open Cert.LibReal

/-- The law over the real numbers. -/
theorem law_real {K R : ℕ} (x w : Fin K → ℝ) (a : Fin R → Fin K → ℝ) (b : Fin R → ℝ) (t : ℝ) :
    ∑ k, x k * (w k + ∑ r, b r * (t * a r k)) = ∑ k, x k * w k + ∑ r, ((∑ k, x k * a r k) * t) * b r := by
  have h1 : ∀ k, x k * (w k + ∑ r, b r * (t * a r k)) = x k * w k + ∑ r, x k * (b r * (t * a r k)) := fun k => by
    rw [mul_add, Finset.mul_sum]
  rw [Finset.sum_congr rfl fun k _ => h1 k, Finset.sum_add_distrib, Finset.sum_comm]
  congr 1
  refine Finset.sum_congr rfl fun r _ => ?_
  rw [Finset.sum_mul, Finset.sum_mul]
  exact Finset.sum_congr rfl fun k _ => by ring

/-- The law over the extended reals, for entries that are real numbers. -/
theorem law {K R : ℕ} (x w : Fin K → EReal) (a : Fin R → Fin K → EReal) (b : Fin R → EReal) (t : EReal)
    (hx : ∀ k, IsReal (x k)) (hw : ∀ k, IsReal (w k)) (ha : ∀ r k, IsReal (a r k)) (hb : ∀ r, IsReal (b r))
    (ht : IsReal t) :
    ∑ k, x k * (w k + ∑ r, b r * (t * a r k)) = ∑ k, x k * w k + ∑ r, ((∑ k, x k * a r k) * t) * b r := by
  choose xr hxr using hx
  choose wr hwr using hw
  choose ar har using ha
  choose br hbr using hb
  obtain ⟨tr, rfl⟩ := ht
  obtain rfl : x = fun k => ((xr k : ℝ) : EReal) := funext hxr
  obtain rfl : w = fun k => ((wr k : ℝ) : EReal) := funext hwr
  obtain rfl : a = fun r k => ((ar r k : ℝ) : EReal) := funext fun r => funext fun k => har r k
  obtain rfl : b = fun r => ((br r : ℝ) : EReal) := funext hbr
  simp only [← EReal.coe_mul, ← EReal.coe_add, sum_coe]
  exact congrArg _ (law_real xr wr ar br tr)

end Cert.LoraLaw

end
-- ==== Proof.Bridge.lean ====
/-
  The two programs compute one function. At token (b, s) and output feature o the kernel program's result is
      sum over k of x(b, s, k) · (W(o, k) + sum over r of B(o, r) · (2 · A(r, k)))
  (the low-rank update folded into the weight before ONE projection) and the reference's is
      sum over k of x(b, s, k) · W(o, k)  +  sum over r of ((sum over k of x(b, s, k) · A(r, k)) · 2) · B(o, r)
  (three projections). They are equal by distributing x(b, s, k) over the inner sum and exchanging the two finite
  sums, which is sound because every entry is a real number (the float 2.0 included).
-/
import proofs.«145971_j83949430767868_2_alg».proof.Proof.KernelRun
import proofs.«145971_j83949430767868_2_alg».proof.Proof.RefValue
import proofs.«145971_j83949430767868_2_alg».proof.Proof.LoraLaw
import proofs.«145971_j83949430767868_2_alg».proof.Proof.LibReal

noncomputable section

open scoped BigOperators

namespace Cert.Proof.Lora

open Cert.LibReal Idealize.ShloMosaic Idealize.ShloMosaic.ValueIdx

theorem two_real : IsReal (Ideal.ofBits .f32 0x40000000#32) := ⟨2, ofBits_two⟩

/-- For arrays of real numbers the kernel program's function of the arguments is the reference's. -/
theorem kernel_eq_ref (x : FVec Ideal Cert.KernelIdeal.S4x2048x4096 .f32) (W : FVec Ideal Cert.KernelIdeal.S4096x4096 .f32)
    (A : FVec Ideal Cert.KernelIdeal.S64x4096 .f32) (B : FVec Ideal Cert.KernelIdeal.S4096x64 .f32)
    (hx : ∀ i, IsReal (x i)) (hW : ∀ i, IsReal (W i)) (hA : ∀ i, IsReal (A i)) (hB : ∀ i, IsReal (B i)) :
    Cert.KernelIdeal.Lora.kernelOut x W A B = Cert.ReferenceIdeal.Read.val_main_v6 (F := Ideal) x W A B := by
  funext i
  obtain ⟨b, s, o, rfl⟩ : ∃ (b : Fin 4) (s : Fin 2048) (o : Fin 4096), i = ix3 b s o := ⟨i 0, i 1, i 2, eq_ix3 i⟩
  rw [Cert.ReferenceIdeal.Lora.ref_apply]
  show ∑ k : Fin 4096, x (ix3 b s k) * Cert.KernelIdeal.Lora.combinedAt W A B o k = _
  unfold Cert.KernelIdeal.Lora.combinedAt
  exact Cert.LoraLaw.law (fun k => x (ix3 b s k)) (fun k => W (ix2 o k)) (fun r k => A (ix2 r k)) (fun r => B (ix2 o r)) _
    (fun k => hx _) (fun k => hW _) (fun r k => hA _) (fun r => hB _) two_real

end Cert.Proof.Lora

end
-- ==== Proof.lean ====
/-
  A linear layer with a low-rank update: for activations `x : [4, 2048, 4096]`, a dense weight `W : [4096, 4096]`,
  and the update's two factors `A : [64, 4096]` and `B : [4096, 64]`, every one of whose 64 rank coordinates is scaled
  by 2 = 32 / 16, the result at token (b, s) and output feature o is

      sum over k of x(b, s, k) · W(o, k)  +  sum over r of ((sum over k of x(b, s, k) · A(r, k)) · 2) · B(o, r).

  The reference computes it as written: three projections and a sum. The kernel program first folds the update into
  the weight on the host, Wc(o, k) = W(o, k) + sum over r of B(o, r) · (2 · A(r, k)), flattens the activations to
  `[8192, 4096]`, and then runs ONE tiled product on a 16 × 8 grid: point (i, j) multiplies 512 rows of the flattened
  activations with 512 rows of Wc, contracting the 4096 columns of both, and writes tile (i, j) of the `[8192, 4096]`
  output, which the host reshapes back to `[4, 2048, 4096]`. On the extended reals a change of float format is the
  identity, so the kernel program's result at (b, s, o) is sum over k of x(b, s, k) · Wc(o, k).

  The two are equal by distributing x(b, s, k) over the inner sum and exchanging the two finite sums. Distributing a
  factor over a sum can fail at the infinities, so this is where the precondition is used: every entry of the four
  arrays is a real number, hence every partial sum is, and the identity is the one of the real numbers.

  The pieces: the reference's result at an entry (RefValue), what the region finds in its two input windows
  (KernelPrefix), the region's output array as one whole-array product (KernelBlock), the host line after the region
  and the kernel program's run (KernelRun), the precondition read back (FiniteInputs), the law (LoraLaw) and the
  equality of the two functions (Bridge). The three frames are the generated ones (the reference's is its generated
  run with the result dropped); the idealization rewrote no operation, so there is nothing to preserve.
-/
import proofs.«145971_j83949430767868_2_alg».proof.Defs
import proofs.«145971_j83949430767868_2_alg».proof.Proof.Gen.Kernel
import proofs.«145971_j83949430767868_2_alg».proof.Proof.Gen.Kernel.Skeleton
import proofs.«145971_j83949430767868_2_alg».proof.Proof.Gen.Kernel.Launch
import proofs.«145971_j83949430767868_2_alg».proof.Proof.Gen.Kernel.Points
import proofs.«145971_j83949430767868_2_alg».proof.Proof.Gen.Kernel.Frame
import proofs.«145971_j83949430767868_2_alg».proof.Proof.Gen.KernelIdeal
import proofs.«145971_j83949430767868_2_alg».proof.Proof.Gen.KernelIdeal.Skeleton
import proofs.«145971_j83949430767868_2_alg».proof.Proof.Gen.KernelIdeal.Launch
import proofs.«145971_j83949430767868_2_alg».proof.Proof.Gen.KernelIdeal.Points
import proofs.«145971_j83949430767868_2_alg».proof.Proof.Gen.KernelIdeal.Frame
import proofs.«145971_j83949430767868_2_alg».proof.Proof.Gen.ReferenceIdeal
import proofs.«145971_j83949430767868_2_alg».proof.Proof.Gen.Pre_finite_inputs
import proofs.«145971_j83949430767868_2_alg».proof.Proof.Gen.ReferenceIdeal.Run
import proofs.«145971_j83949430767868_2_alg».proof.Proof.Gen.ReferenceIdeal.Read
import proofs.«145971_j83949430767868_2_alg».proof.Proof.KernelRun
import proofs.«145971_j83949430767868_2_alg».proof.Proof.FiniteInputs
import proofs.«145971_j83949430767868_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the kernel program's function of the arguments: the kernel
    program by its run, the reference because under the precondition its own function is the same one. -/
theorem algebraic : Cert.algebraic_KernelIdeal_ReferenceIdeal := by
  intro m ρ m' ρ' hpre hagree
  refine ⟨fun c => Cert.KernelIdeal.Lora.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Lora.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hA, hB⟩ := Cert.Pre_finite_inputs.Lora.entries_real _ _ _ _ (hpre c)
  rw [Cert.ReferenceIdeal.Read.val_main_v6_eq, (hagree c).1, (hagree c).2.1, (hagree c).2.2.1, (hagree c).2.2.2]
  exact (Cert.Proof.Lora.kernel_eq_ref _ _ _ _ hx hW hA hB).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
